-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096 : Shape := ⟨1, ![4096]⟩
abbrev S4096x4096 : Shape := ⟨2, ![4096, 4096]⟩
abbrev S4096x1024 : Shape := ⟨2, ![4096, 1024]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S2x4096x4096 .f32) (main_arg1 : FVec F S4096 .f32) (main_arg2 : FVec F S4096x4096 .f32) (main_arg3 : FVec F S4096x1024 .f32) (main_arg4 : FVec F S4096x1024 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S2x4096x4096 : Shape := ⟨3, ![2, 4096, 4096]⟩
abbrev S4096 : Shape := ⟨1, ![4096]⟩
abbrev S4096x4096 : Shape := ⟨2, ![4096, 4096]⟩
abbrev S4096x1024 : Shape := ⟨2, ![4096, 1024]⟩
abbrev S8192x4096 : Shape := ⟨2, ![8192, 4096]⟩
abbrev S8192x1024 : Shape := ⟨2, ![8192, 1024]⟩
abbrev S128x4096 : Shape := ⟨2, ![128, 4096]⟩
abbrev S128x1024 : Shape := ⟨2, ![128, 1024]⟩
abbrev S128 : Shape := ⟨1, ![128]⟩
abbrev S128x1 : Shape := ⟨2, ![128, 1]⟩
abbrev S1x4096 : Shape := ⟨2, ![1, 4096]⟩
abbrev S2x4096x1024 : Shape := ⟨3, ![2, 4096, 1024]⟩

abbrev nBuf : Space → Nat
  | .hbm => 15
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S8192x4096, .f32⟩
  | .hbm, ⟨6, _⟩ => ⟨S4096x4096, .bf16⟩
  | .hbm, ⟨7, _⟩ => ⟨S4096x1024, .bf16⟩
  | .hbm, ⟨8, _⟩ => ⟨S4096x1024, .bf16⟩
  | .hbm, ⟨9, _⟩ => ⟨S8192x4096, .f32⟩
  | .hbm, ⟨10, _⟩ => ⟨S8192x1024, .f32⟩
  | .hbm, ⟨11, _⟩ => ⟨S8192x1024, .f32⟩
  | .hbm, ⟨12, _⟩ => ⟨S2x4096x4096, .f32⟩
  | .hbm, ⟨13, _⟩ => ⟨S2x4096x1024, .f32⟩
  | .hbm, ⟨14, _⟩ => ⟨S2x4096x1024, .f32⟩
  | .local _ .vmem, ⟨0, _⟩ => ⟨S128x4096, .f32⟩
  | .local _ .vmem, ⟨1, _⟩ => ⟨S128x4096, .f32⟩
  | .local _ .vmem, ⟨2, _⟩ => ⟨S4096, .f32⟩
  | .local _ .vmem, ⟨3, _⟩ => ⟨S4096x4096, .bf16⟩
  | .local _ .vmem, ⟨4, _⟩ => ⟨S4096x1024, .bf16⟩
  | .local _ .vmem, ⟨5, _⟩ => ⟨S4096x1024, .bf16⟩
  | .local _ .vmem, ⟨6, _⟩ => ⟨S128x4096, .f32⟩
  | .local _ .vmem, ⟨7, _⟩ => ⟨S128x4096, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2x4096x4096_S8192x4096 : S2x4096x4096.ShapeCasts S8192x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  reduces_S128x4096_S128 : S128x4096.Reduces [1] S128
  shapeCasts_S128_S128x1 : S128.ShapeCasts S128x1
  broadcasts_S128x1_S128x4096 : S128x1.Broadcasts S128x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S128x1024_S128x1024_0_0 : ∀ a, (![0, 0] : Fin 2 → Nat) a + S128x1024.size a ≤ S128x1024.size a
  h_S128x1024 : 0 < S128x1024.numel
  shapeCasts_S8192x4096_S2x4096x4096 : S8192x4096.ShapeCasts S2x4096x4096
  shapeCasts_S8192x1024_S2x4096x1024 : S8192x1024.ShapeCasts S2x4096x1024
  dot_S128x4096_S4096x4096_S128x4096_1_0_0_1_n_n_wf : DotDims.WF S128x4096 S4096x4096 S128x4096 [1] [0] [0] [1] [] []
  dot_S128x4096_S4096x1024_S128x1024_1_0_0_1_n_n_wf : DotDims.WF S128x4096 S4096x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x4096.size a ≤ S4096x4096.size a
  hwx0_2 : ∀ i : grid0.Coords, EltTy.bits .bf16 = 32 ∨ (Rect.block (s := S4096x4096) S4096x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S128x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_2) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S4096 : Shape := ⟨1, ![4096]⟩
abbrev S4096x4096 : Shape := ⟨2, ![4096, 4096]⟩
abbrev S4096x1024 : Shape := ⟨2, ![4096, 1024]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S2x4096x1024 : Shape := ⟨3, ![2, 4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S2x4096x4096, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x4096, .f32⟩
  | .hbm, ⟨17, _⟩ => ⟨S2x4096x4096, .f32⟩
  | .hbm, ⟨18, _⟩ => ⟨S1x1x4096, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S2x4096x1024, .f32⟩
  | .hbm, ⟨23, _⟩ => ⟨S2x4096x1024, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S2x4096x4096_S2x4096_d2 : S2x4096x4096.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x4096_0_1_2 : S2x4096x1.BroadcastsInDim S2x4096x4096 (![0, 1, 2] : Fin 3 → Fin S2x4096x4096.rank)
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S4096x4096_S2x4096x4096_2_0_01_1_n_n_wf : DotDims.WF S2x4096x4096 S4096x4096 S2x4096x4096 [2] [0] [0, 1] [1] [] []
  dot_S2x4096x4096_S4096x1024_S2x4096x1024_2_0_01_1_n_n_wf : DotDims.WF S2x4096x4096 S4096x1024 S2x4096x1024 [2] [0] [0, 1] [1] [] []

variable [Facts₀]

def dot_S2x4096x4096_S4096x4096_S2x4096x4096_2_0_01_1_n_n : DotDims S2x4096x4096 S4096x4096 S2x4096x4096 where
  lhsContracting := [2]
  rhsContracting := [0]
  lhsNonContracting := [0, 1]
  rhsNonContracting := [1]
  lhsBatch := []
  rhsBatch := []
  wf := dot_S2x4096x4096_S4096x4096_S2x4096x4096_2_0_01_1_n_n_wf
def dot_S2x4096x4096_S4096x1024_S2x4096x1024_2_0_01_1_n_n : DotDims S2x4096x4096 S4096x1024 S2x4096x1024 where
  lhsContracting := [2]
  rhsContracting := [0]
  lhsNonContracting := [0, 1]
  rhsNonContracting := [1]
  lhsBatch := []
  rhsBatch := []
  wf := dot_S2x4096x4096_S4096x1024_S2x4096x1024_2_0_01_1_n_n_wf

class Facts : Prop extends Facts₀ where

variable [Facts]
-- ==== Proof.LibMerge.lean ====
/-
  Two leading axes merged into one, and one leading axis split into two, read at explicit coordinates.

  An array `[n, a, b]` laid out row-major is the same sequence of numbers as the array `[n * a, b]`: entry `(p, q, j)`
  of the first sits at position `(p * a + q) * b + j`, which is where entry `(p * a + q, j)` of the second sits. So a cast
  from either shape to the other keeps every entry, the merged row being `r = p * a + q`.
-/
import Idealize.ShloMosaic.Lib.Pipeline.Value
import Idealize.ShloMosaic.Lib.ValueIdx

namespace Idealize.ShloMosaic.ValueIdx

variable {α : Type}

/-- An `[n, a, b]` array cast to `[m, b]` reads, at `(r, j)` with `r = p * a + q`, the operand at `(p, q, j)`. -/
theorem shapeCast_nab_mb_apply {n a b m : ℕ} (x : (⟨3, ![n, a, b]⟩ : Shape).Idx → α)
    (h : (⟨3, ![n, a, b]⟩ : Shape).ShapeCasts ⟨2, ![m, b]⟩) (p : Fin n) (q : Fin a) (j : Fin b) (r : Fin m)
    (hr : r.val = p.val * a + q.val) : shapeCast ⟨2, ![m, b]⟩ x h (ix2 r j) = x (ix3 p q j) :=
  shapeCast_apply x h _ _ (by
    rw [Shape.rowMajor_val_three, Shape.rowMajor_val_two]
    show (p.val * a + q.val) * b + j.val = r.val * b + j.val
    rw [hr])

/-- An `[m, b]` array cast to `[n, a, b]` reads, at `(p, q, j)`, the operand at `(r, j)` with `r = p * a + q`. -/
theorem shapeCast_mb_nab_apply {n a b m : ℕ} (x : (⟨2, ![m, b]⟩ : Shape).Idx → α)
    (h : (⟨2, ![m, b]⟩ : Shape).ShapeCasts ⟨3, ![n, a, b]⟩) (p : Fin n) (q : Fin a) (j : Fin b) (r : Fin m)
    (hr : r.val = p.val * a + q.val) : shapeCast ⟨3, ![n, a, b]⟩ x h (ix3 p q j) = x (ix2 r j) :=
  shapeCast_apply x h _ _ (by
    rw [Shape.rowMajor_val_three, Shape.rowMajor_val_two]
    show r.val * b + j.val = (p.val * a + q.val) * b + j.val
    rw [hr])

end Idealize.ShloMosaic.ValueIdx
-- ==== Proof.RowSpec.lean ====
/-
  The mathematics of the certificate: a root-mean-square normalization of each row followed by a projection.

  A row `r` of 4096 numbers is scaled by `rowScale r = (mean of r² + ε)^(-1/2)`, the mean taken as the sum of the
  squares divided by 4096, both constants kept as the binary words the programs print. Entry `k` of the
  normalized row is `r k · rowScale r · g k` (`g` the gain vector), and one entry of a projection is the sum over
  `k` of the normalized row against one column of a weight matrix: `rowProj r g w`.

  The activations come as `[2, 4096, 4096]` (batch, position, hidden): `proj3` projects row `(b, s)`. The same
  numbers laid out as `[8192, 4096]` give `proj2`, which projects row `r`; merging the two leading axes of the
  input and splitting the leading axis of the output turns one into the other (`proj3_eq_cast`), row `r` being
  row `(b, s)` with `r = b · 4096 + s`.
-/
import Idealize.ShloMosaic.PureOps.Ideal
import Idealize.ShloMosaic.Lib.ValueIdx
import proofs.«177403_j21139829030929_2_alg».proof.Proof.LibMerge

noncomputable section

open Idealize.ShloMosaic Idealize.ShloMosaic.ValueIdx
open scoped BigOperators

namespace Cert.RmsProj

/-- The scale of a row: the reciprocal square root of the mean of its squares plus epsilon. -/
def rowScale (r : Fin 4096 → EReal) : EReal :=
  Ideal.rsqrt (Ideal.div (∑ k : Fin 4096, r k * r k) (Ideal.ofBits .f32 0x45800000#32) + Ideal.ofBits .f32 0x358637BD#32)

/-- One entry of a projection of the normalized row: the normalized entries against a column `w` of weights. -/
def rowProj (r g w : Fin 4096 → EReal) : EReal :=
  ∑ k : Fin 4096, r k * rowScale r * g k * w k

/-- The projection of the normalized rows of a `[8192, 4096]` array onto the `N` columns of a weight matrix. -/
def proj2 {N : ℕ} (x : (⟨2, ![8192, 4096]⟩ : Shape).Idx → EReal) (g : (⟨1, ![4096]⟩ : Shape).Idx → EReal)
    (w : (⟨2, ![4096, N]⟩ : Shape).Idx → EReal) : (⟨2, ![8192, N]⟩ : Shape).Idx → EReal :=
  fun i => rowProj (fun k => x (ix2 (i 0) k)) (fun k => g (ix1 k)) (fun k => w (ix2 k (i 1)))

/-- The same for a `[2, 4096, 4096]` array, row `(b, s)` at a time. -/
def proj3 {N : ℕ} (x : (⟨3, ![2, 4096, 4096]⟩ : Shape).Idx → EReal) (g : (⟨1, ![4096]⟩ : Shape).Idx → EReal)
    (w : (⟨2, ![4096, N]⟩ : Shape).Idx → EReal) : (⟨3, ![2, 4096, N]⟩ : Shape).Idx → EReal :=
  fun i => rowProj (fun k => x (ix3 (i 0) (i 1) k)) (fun k => g (ix1 k)) (fun k => w (ix2 k (i 2)))

/-- Merging the batch and position axes of the input, projecting the 8192 rows and splitting the rows of the result
    again is the projection of the rows `(b, s)`. -/
theorem proj3_eq_cast {N : ℕ} (x : (⟨3, ![2, 4096, 4096]⟩ : Shape).Idx → EReal) (g : (⟨1, ![4096]⟩ : Shape).Idx → EReal)
    (w : (⟨2, ![4096, N]⟩ : Shape).Idx → EReal)
    (h1 : (⟨3, ![2, 4096, 4096]⟩ : Shape).ShapeCasts ⟨2, ![8192, 4096]⟩)
    (h2 : (⟨2, ![8192, N]⟩ : Shape).ShapeCasts ⟨3, ![2, 4096, N]⟩) :
    shapeCast ⟨3, ![2, 4096, N]⟩ (proj2 (shapeCast ⟨2, ![8192, 4096]⟩ x h1) g w) h2 = proj3 x g w := by
  funext i
  obtain ⟨b, s, d, rfl⟩ : ∃ (b : Fin 2) (s : Fin 4096) (d : Fin N), i = ix3 b s d := ⟨i 0, i 1, i 2, eq_ix3 i⟩
  have hr : b.val * 4096 + s.val < 8192 := by have := b.isLt; have := s.isLt; omega
  rw [shapeCast_mb_nab_apply _ h2 b s d ⟨b.val * 4096 + s.val, hr⟩ rfl]
  have e : (fun k : Fin 4096 => shapeCast ⟨2, ![8192, 4096]⟩ x h1 (ix2 (⟨b.val * 4096 + s.val, hr⟩ : Fin 8192) k))
      = fun k : Fin 4096 => x (ix3 b s k) :=
    funext fun k => shapeCast_nab_mb_apply x h1 b s k ⟨b.val * 4096 + s.val, hr⟩ rfl
  show rowProj (fun k : Fin 4096 => shapeCast ⟨2, ![8192, 4096]⟩ x h1 (ix2 (⟨b.val * 4096 + s.val, hr⟩ : Fin 8192) k))
      (fun k => g (ix1 k)) (fun k => w (ix2 k d))
    = rowProj (fun k : Fin 4096 => x (ix3 b s k)) (fun k => g (ix1 k)) (fun k => w (ix2 k d))
  rw [e]

end Cert.RmsProj

end
-- ==== Proof.RefSide.lean ====
/-
  The reference computes the projections of the normalized rows.

  Read one operation at a time, the reference squares the activations, sums the squares of row `(b, s)` from the zero
  word, divides by 4096, adds epsilon, takes the reciprocal square root, and multiplies entry `(b, s, k)` by that scale and
  then by the gain `g k`: the normalized row of `RowSpec`. Each of the three results contracts that row with the columns
  of one weight matrix, which is `proj3`.
-/
import proofs.«177403_j21139829030929_2_alg».proof.Proof.Gen.ReferenceIdeal.Read
import proofs.«177403_j21139829030929_2_alg».proof.Proof.RowSpec

noncomputable section

open Idealize.ShloMosaic Idealize.ShloMosaic.ValueIdx
open scoped BigOperators

namespace Cert.ReferenceIdeal.RefValue

open Cert.ReferenceIdeal Cert.ReferenceIdeal.Read Cert.RmsProj

/-- Entry `(b, s, k)` of the reference's normalized activations: the entry times its row's scale times the gain. -/
theorem normed_apply (x : S2x4096x4096.Idx → EReal) (g : S4096.Idx → EReal) (b : Fin 2) (s : Fin 4096) (k : Fin 4096) :
    val_main_v12 (F := Ideal) x g (ix3 b s k) = x (ix3 b s k) * rowScale (fun k' => x (ix3 b s k')) * g (ix1 k) := by
  have hrow : ∀ k' : Fin 4096, idx_main_v1 (idx_main_v2 (idx_main_v8 (ix3 b s k))) k' = ix3 b s k' := fun k' =>
    funext fun a => Fin.ext (by match a with | ⟨0, _⟩ => rfl | ⟨1, _⟩ => rfl | ⟨2, _⟩ => rfl)
  have hg : idx_main_v10 (idx_main_v11 (ix3 b s k)) = ix1 k :=
    funext fun a => Fin.ext (by match a with | ⟨0, _⟩ => rfl)
  rw [val_main_v12_apply, val_main_v9_apply, val_main_v8_apply, val_main_v7_apply, val_main_v6_apply, val_main_v4_apply,
    val_main_v2_apply, val_main_v1_apply, val_main_v3_apply, val_main_v5_apply, val_main_cst_0_apply, val_main_cst_1_apply,
    val_main_cst_apply, val_main_v11_apply, val_main_v10_apply, hg]
  simp only [val_main_v0_apply, hrow, Ideal.mulf_def, Ideal.addf_def, Ideal.hostDivf_def, Ideal.hostUnary_rsqrt_def,
    Ideal.ofBits_def, Ideal.ofBits_zero_f32, zero_add]
  rfl

/-- The first result: the normalized rows against the columns of the first weight matrix. -/
theorem q_eq (x : S2x4096x4096.Idx → EReal) (g : S4096.Idx → EReal) (w : S4096x4096.Idx → EReal) :
    val_main_v13 (F := Ideal) x g w = proj3 x g w := by
  funext i
  obtain ⟨b, s, d, rfl⟩ : ∃ (b : Fin 2) (s : Fin 4096) (d : Fin 4096), i = ix3 b s d := ⟨i 0, i 1, i 2, eq_ix3 i⟩
  rw [val_main_v13_apply]
  show _ = ∑ k : Fin 4096, x (ix3 b s k) * rowScale (fun k' => x (ix3 b s k')) * g (ix1 k) * w (ix2 k d)
  refine Finset.sum_congr rfl fun k _ => ?_
  have el : lidx_main_v13 (ix3 b s d) k = ix3 b s k :=
    funext fun a => Fin.ext (by match a with | ⟨0, _⟩ => rfl | ⟨1, _⟩ => rfl | ⟨2, _⟩ => rfl)
  have er : ridx_main_v13 (ix3 b s d) k = ix2 k d :=
    funext fun a => Fin.ext (by match a with | ⟨0, _⟩ => rfl | ⟨1, _⟩ => rfl)
  rw [el, er, normed_apply]

/-- The second result: against the columns of the second weight matrix. -/
theorem k_eq (x : S2x4096x4096.Idx → EReal) (g : S4096.Idx → EReal) (w : S4096x1024.Idx → EReal) :
    val_main_v14 (F := Ideal) x g w = proj3 x g w := by
  funext i
  obtain ⟨b, s, d, rfl⟩ : ∃ (b : Fin 2) (s : Fin 4096) (d : Fin 1024), i = ix3 b s d := ⟨i 0, i 1, i 2, eq_ix3 i⟩
  rw [val_main_v14_apply]
  show _ = ∑ k : Fin 4096, x (ix3 b s k) * rowScale (fun k' => x (ix3 b s k')) * g (ix1 k) * w (ix2 k d)
  refine Finset.sum_congr rfl fun k _ => ?_
  have el : lidx_main_v14 (ix3 b s d) k = ix3 b s k :=
    funext fun a => Fin.ext (by match a with | ⟨0, _⟩ => rfl | ⟨1, _⟩ => rfl | ⟨2, _⟩ => rfl)
  have er : ridx_main_v14 (ix3 b s d) k = ix2 k d :=
    funext fun a => Fin.ext (by match a with | ⟨0, _⟩ => rfl | ⟨1, _⟩ => rfl)
  rw [el, er, normed_apply]

/-- The third result: against the columns of the third weight matrix. -/
theorem v_eq (x : S2x4096x4096.Idx → EReal) (g : S4096.Idx → EReal) (w : S4096x1024.Idx → EReal) :
    val_main_v15 (F := Ideal) x g w = proj3 x g w := by
  funext i
  obtain ⟨b, s, d, rfl⟩ : ∃ (b : Fin 2) (s : Fin 4096) (d : Fin 1024), i = ix3 b s d := ⟨i 0, i 1, i 2, eq_ix3 i⟩
  rw [val_main_v15_apply]
  show _ = ∑ k : Fin 4096, x (ix3 b s k) * rowScale (fun k' => x (ix3 b s k')) * g (ix1 k) * w (ix2 k d)
  refine Finset.sum_congr rfl fun k _ => ?_
  have el : lidx_main_v15 (ix3 b s d) k = ix3 b s k :=
    funext fun a => Fin.ext (by match a with | ⟨0, _⟩ => rfl | ⟨1, _⟩ => rfl | ⟨2, _⟩ => rfl)
  have er : ridx_main_v15 (ix3 b s d) k = ix2 k d :=
    funext fun a => Fin.ext (by match a with | ⟨0, _⟩ => rfl | ⟨1, _⟩ => rfl)
  rw [el, er, normed_apply]

end Cert.ReferenceIdeal.RefValue

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.KernelRow.lean ====
/-
  What the kernel body computes from one block of 128 rows, read entry by entry.

  The body squares the block, sums each row's squares, divides by 4096, adds epsilon and takes the reciprocal square root:
  the scale of row `p` (`rowScale`). It multiplies entry `(p, q)` by that scale and by the gain `g q`, and rounds the result
  to the matrix unit's input format, which changes nothing on the extended reals. Each of its three products into a
  zero accumulator is then, at `(p, d)`, the sum over `k` of the normalized entry `(p, k)` times the weight `(k, d)`:
  `rowProj` of row `p`, the gains and column `d`.
-/
import proofs.«177403_j21139829030929_2_alg».proof.Proof.Gen.KernelIdeal.Skeleton
import proofs.«177403_j21139829030929_2_alg».proof.Proof.RowSpec
import proofs.«177403_j21139829030929_2_alg».proof.Proof.LibLayout
import proofs.«177403_j21139829030929_2_alg».proof.Proof.LibRows
import Idealize.ShloMosaic.Lib.ValueLayout
import Idealize.ShloMosaic.PureOps.Ideal.Laws

noncomputable section

open Idealize.ShloMosaic Idealize.ShloMosaic.ValueIdx
open scoped BigOperators

namespace Cert.KernelIdeal.Hand

open Cert.KernelIdeal Cert.KernelIdeal.Gen Cert.RmsProj

/-- Entry `(p, q)` of the normalized block: the entry times its row's scale times the gain. -/
theorem normed_apply (x0 : FVec Ideal S128x4096 .f32) (g : FVec Ideal S4096 .f32) (p : Fin 128) (q : Fin 4096) :
    k0_pay1 (F := Ideal) x0 g (ix2 p q) = x0 (ix2 p q) * rowScale (fun k => x0 (ix2 p k)) * g (ix1 q) := by
  unfold k0_pay1
  simp only [shapeCast_self]
  rw [truncf_apply, mulf_apply, mulf_apply, broadcastTo_1b_ab_apply, shapeCast_a_1a_apply, broadcastTo_a1_ab_apply]
  show x0 (ix2 p q) * Ideal.rsqrt (Ideal.div (shapeCast S128x1 _ shapeCasts_S128_S128x1 (ix2 p (0 : Fin 1))) _ + _) * g (ix1 q) = _
  rw [shapeCast_a_a1_apply]
  refine congrArg (fun z : EReal => x0 (ix2 p q)
    * Ideal.rsqrt (Ideal.div z (Ideal.ofBits .f32 0x45800000#32) + Ideal.ofBits .f32 0x358637BD#32) * g (ix1 q)) ?_
  exact rowSum_apply (mulf x0 x0) 0x00000000#32 reduces_S128x4096_S128 (.inl rfl) rfl p

/-- The dimension record of the body's first product, and of its other two. -/
abbrev DQ := dot_S128x4096_S4096x4096_S128x4096_1_0_0_1_n_n
abbrev DK := dot_S128x4096_S4096x1024_S128x1024_1_0_0_1_n_n

/-- The operands' coordinates at output entry `j` and contraction index `q`, for the product onto 4096 columns: the
    left operand's row is `j`'s row and its column is `q`; the right operand's row is `q` and its column `j`'s. -/
theorem lhsQ_0 (j : S128x4096.Idx) (q : DQ.contr.Idx) : (DQ.lhsIdx j q 0).val = (j 0).val := by
  unfold DotDims.lhsIdx
  rw [dif_neg (show ¬(0 : Fin S128x4096.rank) ∈ DQ.lhsBatch by decide), dif_pos (show (0 : Fin S128x4096.rank) ∈ DQ.lhsNonContracting by decide)]
  rfl
theorem lhsQ_1 (j : S128x4096.Idx) (q : DQ.contr.Idx) : (DQ.lhsIdx j q 1).val = (q ⟨0, by decide⟩).val :=
  DQ.lhsIdx_val_of_single rfl j q
theorem rhsQ_0 (j : S128x4096.Idx) (q : DQ.contr.Idx) : (DQ.rhsIdx j q 0).val = (q ⟨0, by decide⟩).val :=
  DQ.rhsIdx_val_of_single rfl j q
theorem rhsQ_1 (j : S128x4096.Idx) (q : DQ.contr.Idx) : (DQ.rhsIdx j q 1).val = (j 1).val := by
  unfold DotDims.rhsIdx
  rw [dif_neg (show ¬(1 : Fin S4096x4096.rank) ∈ DQ.rhsBatch by decide), dif_pos (show (1 : Fin S4096x4096.rank) ∈ DQ.rhsNonContracting by decide)]
  rfl

/-- So with the contraction index numbered `k`, the left operand is read at `(p, k)` -/
theorem lhsQ (p : Fin 128) (d : Fin 4096) (k : Fin 4096) :
    DQ.lhsIdx (ix2 p d) ((contrEquiv1 DQ 4096 rfl rfl).symm k) = ix2 p k :=
  funext fun a => Fin.ext (by
    match a with
    | ⟨0, _⟩ => exact lhsQ_0 _ _
    | ⟨1, _⟩ => exact (lhsQ_1 _ _).trans (contrEquiv1_symm_val DQ 4096 rfl rfl k))

/-- and the right operand at `(k, d)`. -/
theorem rhsQ (p : Fin 128) (d : Fin 4096) (k : Fin 4096) :
    DQ.rhsIdx (ix2 p d) ((contrEquiv1 DQ 4096 rfl rfl).symm k) = ix2 k d :=
  funext fun a => Fin.ext (by
    match a with
    | ⟨0, _⟩ => exact (rhsQ_0 _ _).trans (contrEquiv1_symm_val DQ 4096 rfl rfl k)
    | ⟨1, _⟩ => exact rhsQ_1 _ _)

/-- The same readings for the products onto 1024 columns. -/
theorem lhsK_0 (j : S128x1024.Idx) (q : DK.contr.Idx) : (DK.lhsIdx j q 0).val = (j 0).val := by
  unfold DotDims.lhsIdx
  rw [dif_neg (show ¬(0 : Fin S128x4096.rank) ∈ DK.lhsBatch by decide), dif_pos (show (0 : Fin S128x4096.rank) ∈ DK.lhsNonContracting by decide)]
  rfl
theorem lhsK_1 (j : S128x1024.Idx) (q : DK.contr.Idx) : (DK.lhsIdx j q 1).val = (q ⟨0, by decide⟩).val :=
  DK.lhsIdx_val_of_single rfl j q
theorem rhsK_0 (j : S128x1024.Idx) (q : DK.contr.Idx) : (DK.rhsIdx j q 0).val = (q ⟨0, by decide⟩).val :=
  DK.rhsIdx_val_of_single rfl j q
theorem rhsK_1 (j : S128x1024.Idx) (q : DK.contr.Idx) : (DK.rhsIdx j q 1).val = (j 1).val := by
  unfold DotDims.rhsIdx
  rw [dif_neg (show ¬(1 : Fin S4096x1024.rank) ∈ DK.rhsBatch by decide), dif_pos (show (1 : Fin S4096x1024.rank) ∈ DK.rhsNonContracting by decide)]
  rfl

theorem lhsK (p : Fin 128) (d : Fin 1024) (k : Fin 4096) :
    DK.lhsIdx (ix2 p d) ((contrEquiv1 DK 4096 rfl rfl).symm k) = ix2 p k :=
  funext fun a => Fin.ext (by
    match a with
    | ⟨0, _⟩ => exact lhsK_0 _ _
    | ⟨1, _⟩ => exact (lhsK_1 _ _).trans (contrEquiv1_symm_val DK 4096 rfl rfl k))

theorem rhsK (p : Fin 128) (d : Fin 1024) (k : Fin 4096) :
    DK.rhsIdx (ix2 p d) ((contrEquiv1 DK 4096 rfl rfl).symm k) = ix2 k d :=
  funext fun a => Fin.ext (by
    match a with
    | ⟨0, _⟩ => exact (rhsK_0 _ _).trans (contrEquiv1_symm_val DK 4096 rfl rfl k)
    | ⟨1, _⟩ => exact rhsK_1 _ _)

/-- Entry `(p, d)` of the first product: row `p` of the block, normalized, against column `d` of the weights. -/
theorem q_apply (x0 : FVec Ideal S128x4096 .f32) (g : FVec Ideal S4096 .f32) (w : FVec Ideal S4096x4096 .bf16)
    (p : Fin 128) (d : Fin 4096) :
    k0_pay2 (F := Ideal) x0 g w (ix2 p d)
      = rowProj (fun k => x0 (ix2 p k)) (fun k => g (ix1 k)) (fun k => w (ix2 k d)) := by
  unfold k0_pay2
  simp only [shapeCast_self, matmul]
  rw [Ideal.matmul_constant_zero_apply, ← Equiv.sum_comp (contrEquiv1 DQ 4096 rfl rfl).symm]
  refine Finset.sum_congr rfl fun k _ => ?_
  rw [lhsQ, rhsQ, normed_apply]

/-- Entry `(p, d)` of the second product. -/
theorem k_apply (x0 : FVec Ideal S128x4096 .f32) (g : FVec Ideal S4096 .f32) (w : FVec Ideal S4096x1024 .bf16)
    (p : Fin 128) (d : Fin 1024) :
    k0_pay3 (F := Ideal) x0 g w (ix2 p d)
      = rowProj (fun k => x0 (ix2 p k)) (fun k => g (ix1 k)) (fun k => w (ix2 k d)) := by
  unfold k0_pay3
  simp only [shapeCast_self, matmul]
  rw [Ideal.matmul_constant_zero_apply, ← Equiv.sum_comp (contrEquiv1 DK 4096 rfl rfl).symm]
  refine Finset.sum_congr rfl fun k _ => ?_
  rw [lhsK, rhsK, normed_apply]

/-- Entry `(p, d)` of the third product. -/
theorem v_apply (x0 : FVec Ideal S128x4096 .f32) (g : FVec Ideal S4096 .f32) (w : FVec Ideal S4096x1024 .bf16)
    (p : Fin 128) (d : Fin 1024) :
    k0_pay4 (F := Ideal) x0 g w (ix2 p d)
      = rowProj (fun k => x0 (ix2 p k)) (fun k => g (ix1 k)) (fun k => w (ix2 k d)) := by
  unfold k0_pay4
  simp only [shapeCast_self, matmul]
  rw [Ideal.matmul_constant_zero_apply, ← Equiv.sum_comp (contrEquiv1 DK 4096 rfl rfl).symm]
  refine Finset.sum_congr rfl fun k _ => ?_
  rw [lhsK, rhsK, normed_apply]

end Cert.KernelIdeal.Hand

end
-- ==== Proof.Blocks.lean ====
/-
  From the blocks each grid point writes back to the three whole output arrays.

  The grid has 64 points. Point `t` is handed rows `128 t … 128 t + 127` of the merged activations, the whole gain vector and
  the three whole weight matrices, and writes rows `128 t … 128 t + 127` of each output. What it writes at row `p` of its block
  is the projection of row `128 t + p` of the activations, so every block is a block of ONE function of the arrays the
  region finds (`proj2`). The 64 blocks of 128 rows tile the 8192 rows, so each output array ends holding that function.
-/
import proofs.«177403_j21139829030929_2_alg».proof.Proof.Gen.KernelIdeal.Frame
import proofs.«177403_j21139829030929_2_alg».proof.Proof.KernelRow
import Idealize.ShloMosaic.Lib.Pipeline.Value

noncomputable section

open Idealize.ShloMosaic Idealize.ShloMosaic.TcCoe Idealize.ShloMosaic.ValueIdx Idealize.SL.Sem
open Idealize.ShloMosaic.Pipeline (Dat)
open scoped BigOperators

namespace Cert.KernelIdeal.Hand

open Cert.KernelIdeal Cert.KernelIdeal.Gen Cert.RmsProj

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the activations' window and the three outputs' windows are at block row `t`,
    column block 0; the gain vector's and the weights' windows stay at block 0. -/
theorem idx_facts : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of the activations' block at point `t` is row `128 t + p` of the merged activations. -/
theorem rows_apply (c : Dev nD) (t : Fin cfg0.N) (p : Fin 128) (k : Fin 4096) (r : Fin 8192)
    (hr : r.val = 128 * t.val + p.val) :
    (iblk m c 0 t : Vec Ideal S128x4096 .f32) (ix2 p k) = (V m c main_v0 : S8192x4096.Idx → EReal) (ix2 r k) := by
  obtain ⟨e0, e1, -⟩ := idx_facts t
  unfold iblk
  rw [View.read_apply]
  show (V m c main_v0 : S8192x4096.Idx → EReal) _ = (V m c main_v0 : S8192x4096.Idx → EReal) _
  refine congrArg (V m c main_v0 : S8192x4096.Idx → EReal) (funext fun a => Fin.ext ?_)
  match a with
  | ⟨0, _⟩ => show win0_0.index t (0 : Fin 2) * 128 + 1 * p.val = r.val; rw [e0, hr]; omega
  | ⟨1, _⟩ => show win0_0.index t (1 : Fin 2) * 4096 + 1 * k.val = k.val; rw [e1]; omega

/-- The gain vector's block at any point is the whole vector. -/
theorem gain_apply (c : Dev nD) (t : Fin cfg0.N) (k : Fin 4096) :
    (iblk m c 1 t : Vec Ideal S4096 .f32) (ix1 k) = (V m c main_arg1 : S4096.Idx → EReal) (ix1 k) := by
  obtain ⟨-, -, e, -⟩ := idx_facts t
  unfold iblk
  rw [View.read_apply]
  show (V m c main_arg1 : S4096.Idx → EReal) _ = (V m c main_arg1 : S4096.Idx → EReal) _
  refine congrArg (V m c main_arg1 : S4096.Idx → EReal) (funext fun a => Fin.ext ?_)
  match a with
  | ⟨0, _⟩ => show win0_1.index t (0 : Fin 1) * 4096 + 1 * k.val = k.val; rw [e]; omega

/-- Each weight matrix's block at any point is the whole matrix. -/
theorem wq_apply (c : Dev nD) (t : Fin cfg0.N) (k : Fin 4096) (d : Fin 4096) :
    (iblk m c 2 t : Vec Ideal S4096x4096 .bf16) (ix2 k d) = (V m c main_v1 : S4096x4096.Idx → EReal) (ix2 k d) := by
  obtain ⟨-, -, -, e0, e1, -⟩ := idx_facts t
  unfold iblk
  rw [View.read_apply]
  show (V m c main_v1 : S4096x4096.Idx → EReal) _ = (V m c main_v1 : S4096x4096.Idx → EReal) _
  refine congrArg (V m c main_v1 : S4096x4096.Idx → EReal) (funext fun a => Fin.ext ?_)
  match a with
  | ⟨0, _⟩ => show win0_2.index t (0 : Fin 2) * 4096 + 1 * k.val = k.val; rw [e0]; omega
  | ⟨1, _⟩ => show win0_2.index t (1 : Fin 2) * 4096 + 1 * d.val = d.val; rw [e1]; omega

theorem wk_apply (c : Dev nD) (t : Fin cfg0.N) (k : Fin 4096) (d : Fin 1024) :
    (iblk m c 3 t : Vec Ideal S4096x1024 .bf16) (ix2 k d) = (V m c main_v2 : S4096x1024.Idx → EReal) (ix2 k d) := by
  obtain ⟨-, -, -, -, -, e0, e1, -⟩ := idx_facts t
  unfold iblk
  rw [View.read_apply]
  show (V m c main_v2 : S4096x1024.Idx → EReal) _ = (V m c main_v2 : S4096x1024.Idx → EReal) _
  refine congrArg (V m c main_v2 : S4096x1024.Idx → EReal) (funext fun a => Fin.ext ?_)
  match a with
  | ⟨0, _⟩ => show win0_3.index t (0 : Fin 2) * 4096 + 1 * k.val = k.val; rw [e0]; omega
  | ⟨1, _⟩ => show win0_3.index t (1 : Fin 2) * 1024 + 1 * d.val = d.val; rw [e1]; omega

theorem wv_apply (c : Dev nD) (t : Fin cfg0.N) (k : Fin 4096) (d : Fin 1024) :
    (iblk m c 4 t : Vec Ideal S4096x1024 .bf16) (ix2 k d) = (V m c main_v3 : S4096x1024.Idx → EReal) (ix2 k d) := by
  obtain ⟨-, -, -, -, -, -, -, e0, e1, -⟩ := idx_facts t
  unfold iblk
  rw [View.read_apply]
  show (V m c main_v3 : S4096x1024.Idx → EReal) _ = (V m c main_v3 : S4096x1024.Idx → EReal) _
  refine congrArg (V m c main_v3 : S4096x1024.Idx → EReal) (funext fun a => Fin.ext ?_)
  match a with
  | ⟨0, _⟩ => show win0_4.index t (0 : Fin 2) * 4096 + 1 * k.val = k.val; rw [e0]; omega
  | ⟨1, _⟩ => show win0_4.index t (1 : Fin 2) * 1024 + 1 * d.val = d.val; rw [e1]; omega

/-- What point `t` writes back to the first output is block `t` of the projection onto the first weight matrix. -/
theorem flushed_q (c : Dev nD) (t : Fin cfg0.N) :
    (dats m 0 c).flushed 5 t = ((cfg0.win 5).blk t).view.read (Elt Ideal)
      (proj2 (V m c main_v0 : S8192x4096.Idx → EReal) (V m c main_arg1 : S4096.Idx → EReal) (V m c main_v1 : S4096x4096.Idx → EReal)) := by
  show (cfg0.win 5).cut (grid0.coords t) ((dats m 0 c).after 5 t) = _
  rw [after0_5]
  unfold out0_5
  rw [View.canon_unit_zero zero2]
  simp only [View.ld_unit_zero (S := S128x4096) zero2, View.ld_unit_zero (S := S4096) zero1, View.ld_unit_zero (S := S4096x4096) zero2]
  funext j
  obtain ⟨p, d, rfl⟩ : ∃ (p : Fin 128) (d : Fin 4096), j = (ix2 p d : S128x4096.Idx) := ⟨j 0, j 1, eq_ix2 (n0 := 128) (n1 := 4096) j⟩
  obtain ⟨-, -, -, -, -, -, -, -, -, e0, e1, -⟩ := idx_facts t
  have ht : t.val < 64 := Nat.lt_of_lt_of_eq t.isLt N_0
  have hr : 128 * t.val + p.val < 8192 := by have := p.isLt; omega
  have he : ((cfg0.win 5).blk t).view.emb (ix2 p d : S128x4096.Idx) = (ix2 (⟨128 * t.val + p.val, hr⟩ : Fin 8192) d : S8192x4096.Idx) :=
    funext fun a => Fin.ext (by
      match a with
      | ⟨0, _⟩ => show win0_5.index t (0 : Fin 2) * 128 + 1 * p.val = 128 * t.val + p.val; rw [e0]; omega
      | ⟨1, _⟩ => show win0_5.index t (1 : Fin 2) * 4096 + 1 * d.val = d.val; rw [e1]; omega)
  show k0_pay2 (iblk m c 0 t) (iblk m c 1 t) (iblk m c 2 t) (ix2 p d)
    = proj2 (V m c main_v0 : S8192x4096.Idx → EReal) (V m c main_arg1 : S4096.Idx → EReal) (V m c main_v1 : S4096x4096.Idx → EReal)
        (((cfg0.win 5).blk t).view.emb (ix2 p d : S128x4096.Idx))
  rw [he]
  refine (q_apply (iblk m c 0 t) (iblk m c 1 t) (iblk m c 2 t) p d).trans ?_
  have ex : (fun k : Fin 4096 => (iblk m c 0 t : Vec Ideal S128x4096 .f32) (ix2 p k))
      = fun k : Fin 4096 => (V m c main_v0 : S8192x4096.Idx → EReal) (ix2 (⟨128 * t.val + p.val, hr⟩ : Fin 8192) k) :=
    funext fun k => rows_apply m c t p k _ rfl
  have eg : (fun k : Fin 4096 => (iblk m c 1 t : Vec Ideal S4096 .f32) (ix1 k))
      = fun k : Fin 4096 => (V m c main_arg1 : S4096.Idx → EReal) (ix1 k) := funext fun k => gain_apply m c t k
  have ew : (fun k : Fin 4096 => (iblk m c 2 t : Vec Ideal S4096x4096 .bf16) (ix2 k d))
      = fun k : Fin 4096 => (V m c main_v1 : S4096x4096.Idx → EReal) (ix2 k d) := funext fun k => wq_apply m c t k d
  show rowProj (fun k : Fin 4096 => (iblk m c 0 t : Vec Ideal S128x4096 .f32) (ix2 p k))
      (fun k : Fin 4096 => (iblk m c 1 t : Vec Ideal S4096 .f32) (ix1 k))
      (fun k : Fin 4096 => (iblk m c 2 t : Vec Ideal S4096x4096 .bf16) (ix2 k d)) = _
  rw [ex, eg, ew]
  rfl

/-- What point `t` writes back to the second output is block `t` of the projection onto the second weight matrix. -/
theorem flushed_k (c : Dev nD) (t : Fin cfg0.N) :
    (dats m 0 c).flushed 6 t = ((cfg0.win 6).blk t).view.read (Elt Ideal)
      (proj2 (V m c main_v0 : S8192x4096.Idx → EReal) (V m c main_arg1 : S4096.Idx → EReal) (V m c main_v2 : S4096x1024.Idx → EReal)) := by
  show (cfg0.win 6).cut (grid0.coords t) ((dats m 0 c).after 6 t) = _
  rw [after0_6]
  unfold out0_6
  rw [View.canon_unit_zero zero2]
  simp only [View.ld_unit_zero (S := S128x4096) zero2, View.ld_unit_zero (S := S4096) zero1, View.ld_unit_zero (S := S4096x1024) zero2]
  funext j
  obtain ⟨p, d, rfl⟩ : ∃ (p : Fin 128) (d : Fin 1024), j = (ix2 p d : S128x1024.Idx) := ⟨j 0, j 1, eq_ix2 (n0 := 128) (n1 := 1024) j⟩
  obtain ⟨-, -, -, -, -, -, -, -, -, -, -, e0, e1, -⟩ := idx_facts t
  have ht : t.val < 64 := Nat.lt_of_lt_of_eq t.isLt N_0
  have hr : 128 * t.val + p.val < 8192 := by have := p.isLt; omega
  have he : ((cfg0.win 6).blk t).view.emb (ix2 p d : S128x1024.Idx) = (ix2 (⟨128 * t.val + p.val, hr⟩ : Fin 8192) d : S8192x1024.Idx) :=
    funext fun a => Fin.ext (by
      match a with
      | ⟨0, _⟩ => show win0_6.index t (0 : Fin 2) * 128 + 1 * p.val = 128 * t.val + p.val; rw [e0]; omega
      | ⟨1, _⟩ => show win0_6.index t (1 : Fin 2) * 1024 + 1 * d.val = d.val; rw [e1]; omega)
  show k0_pay3 (iblk m c 0 t) (iblk m c 1 t) (iblk m c 3 t) (ix2 p d)
    = proj2 (V m c main_v0 : S8192x4096.Idx → EReal) (V m c main_arg1 : S4096.Idx → EReal) (V m c main_v2 : S4096x1024.Idx → EReal)
        (((cfg0.win 6).blk t).view.emb (ix2 p d : S128x1024.Idx))
  rw [he]
  refine (k_apply (iblk m c 0 t) (iblk m c 1 t) (iblk m c 3 t) p d).trans ?_
  have ex : (fun k : Fin 4096 => (iblk m c 0 t : Vec Ideal S128x4096 .f32) (ix2 p k))
      = fun k : Fin 4096 => (V m c main_v0 : S8192x4096.Idx → EReal) (ix2 (⟨128 * t.val + p.val, hr⟩ : Fin 8192) k) :=
    funext fun k => rows_apply m c t p k _ rfl
  have eg : (fun k : Fin 4096 => (iblk m c 1 t : Vec Ideal S4096 .f32) (ix1 k))
      = fun k : Fin 4096 => (V m c main_arg1 : S4096.Idx → EReal) (ix1 k) := funext fun k => gain_apply m c t k
  have ew : (fun k : Fin 4096 => (iblk m c 3 t : Vec Ideal S4096x1024 .bf16) (ix2 k d))
      = fun k : Fin 4096 => (V m c main_v2 : S4096x1024.Idx → EReal) (ix2 k d) := funext fun k => wk_apply m c t k d
  show rowProj (fun k : Fin 4096 => (iblk m c 0 t : Vec Ideal S128x4096 .f32) (ix2 p k))
      (fun k : Fin 4096 => (iblk m c 1 t : Vec Ideal S4096 .f32) (ix1 k))
      (fun k : Fin 4096 => (iblk m c 3 t : Vec Ideal S4096x1024 .bf16) (ix2 k d)) = _
  rw [ex, eg, ew]
  rfl

/-- What point `t` writes back to the third output is block `t` of the projection onto the third weight matrix. -/
theorem flushed_v (c : Dev nD) (t : Fin cfg0.N) :
    (dats m 0 c).flushed 7 t = ((cfg0.win 7).blk t).view.read (Elt Ideal)
      (proj2 (V m c main_v0 : S8192x4096.Idx → EReal) (V m c main_arg1 : S4096.Idx → EReal) (V m c main_v3 : S4096x1024.Idx → EReal)) := by
  show (cfg0.win 7).cut (grid0.coords t) ((dats m 0 c).after 7 t) = _
  rw [after0_7]
  unfold out0_7
  rw [View.canon_unit_zero zero2]
  simp only [View.ld_unit_zero (S := S128x4096) zero2, View.ld_unit_zero (S := S4096) zero1, View.ld_unit_zero (S := S4096x1024) zero2]
  funext j
  obtain ⟨p, d, rfl⟩ : ∃ (p : Fin 128) (d : Fin 1024), j = (ix2 p d : S128x1024.Idx) := ⟨j 0, j 1, eq_ix2 (n0 := 128) (n1 := 1024) j⟩
  obtain ⟨-, -, -, -, -, -, -, -, -, -, -, -, -, e0, e1⟩ := idx_facts t
  have ht : t.val < 64 := Nat.lt_of_lt_of_eq t.isLt N_0
  have hr : 128 * t.val + p.val < 8192 := by have := p.isLt; omega
  have he : ((cfg0.win 7).blk t).view.emb (ix2 p d : S128x1024.Idx) = (ix2 (⟨128 * t.val + p.val, hr⟩ : Fin 8192) d : S8192x1024.Idx) :=
    funext fun a => Fin.ext (by
      match a with
      | ⟨0, _⟩ => show win0_7.index t (0 : Fin 2) * 128 + 1 * p.val = 128 * t.val + p.val; rw [e0]; omega
      | ⟨1, _⟩ => show win0_7.index t (1 : Fin 2) * 1024 + 1 * d.val = d.val; rw [e1]; omega)
  show k0_pay4 (iblk m c 0 t) (iblk m c 1 t) (iblk m c 4 t) (ix2 p d)
    = proj2 (V m c main_v0 : S8192x4096.Idx → EReal) (V m c main_arg1 : S4096.Idx → EReal) (V m c main_v3 : S4096x1024.Idx → EReal)
        (((cfg0.win 7).blk t).view.emb (ix2 p d : S128x1024.Idx))
  rw [he]
  refine (v_apply (iblk m c 0 t) (iblk m c 1 t) (iblk m c 4 t) p d).trans ?_
  have ex : (fun k : Fin 4096 => (iblk m c 0 t : Vec Ideal S128x4096 .f32) (ix2 p k))
      = fun k : Fin 4096 => (V m c main_v0 : S8192x4096.Idx → EReal) (ix2 (⟨128 * t.val + p.val, hr⟩ : Fin 8192) k) :=
    funext fun k => rows_apply m c t p k _ rfl
  have eg : (fun k : Fin 4096 => (iblk m c 1 t : Vec Ideal S4096 .f32) (ix1 k))
      = fun k : Fin 4096 => (V m c main_arg1 : S4096.Idx → EReal) (ix1 k) := funext fun k => gain_apply m c t k
  have ew : (fun k : Fin 4096 => (iblk m c 4 t : Vec Ideal S4096x1024 .bf16) (ix2 k d))
      = fun k : Fin 4096 => (V m c main_v3 : S4096x1024.Idx → EReal) (ix2 k d) := funext fun k => wv_apply m c t k d
  show rowProj (fun k : Fin 4096 => (iblk m c 0 t : Vec Ideal S128x4096 .f32) (ix2 p k))
      (fun k : Fin 4096 => (iblk m c 1 t : Vec Ideal S4096 .f32) (ix1 k))
      (fun k : Fin 4096 => (iblk m c 4 t : Vec Ideal S4096x1024 .bf16) (ix2 k d)) = _
  rw [ex, eg, ew]
  rfl

/-- An entry of the first output lies in point `t`'s block iff, on each axis, it lies in the block's range. -/
theorem mem_blk_q (t : Fin cfg0.N) (i : S8192x4096.Idx) :
    i ∈ ((cfg0.win 5).blk t).view.set ↔ ∀ a : Fin 2, win0_5.index t a * S128x4096.size a ≤ (i a).val
      ∧ (i a).val < win0_5.index t a * S128x4096.size a + S128x4096.size a := by
  show i ∈ ((View.whole main_v4_0).slice (win0_5.rect t)).set ↔ _
  rw [View.set_slice_whole, Rect.mem_set_unit]
  exact Iff.rfl

/-- Every entry of the first output is written by the point whose 128 rows hold its row: point `row / 128`. -/
theorem cover_q (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : (i 0).val / 128 < cfg0.N := Nat.lt_of_lt_of_eq (by omega : (i 0).val / 128 < 64) N_0.symm
  refine ⟨⟨(i 0).val / 128, hN⟩, flush0_5 _, ?_⟩
  rw [mem_blk_q]
  obtain ⟨-, -, -, -, -, -, -, -, -, e0, e1, -⟩ := idx_facts ⟨(i 0).val / 128, hN⟩
  have e0' : win0_5.index ⟨(i 0).val / 128, hN⟩ (0 : Fin 2) = (i 0).val / 128 := e0
  intro a
  match a with
  | ⟨0, _⟩ =>
    show win0_5.index ⟨(i 0).val / 128, hN⟩ (0 : Fin 2) * 128 ≤ (i 0).val
      ∧ (i 0).val < win0_5.index ⟨(i 0).val / 128, hN⟩ (0 : Fin 2) * 128 + 128
    rw [e0']; omega
  | ⟨1, _⟩ =>
    show win0_5.index ⟨(i 0).val / 128, hN⟩ (1 : Fin 2) * 4096 ≤ (i 1).val
      ∧ (i 1).val < win0_5.index ⟨(i 0).val / 128, hN⟩ (1 : Fin 2) * 4096 + 4096
    rw [e1]; omega

/-- An entry of the second output lies in point `t`'s block iff, on each axis, it lies in the block's range. -/
theorem mem_blk_k (t : Fin cfg0.N) (i : S8192x1024.Idx) :
    i ∈ ((cfg0.win 6).blk t).view.set ↔ ∀ a : Fin 2, win0_6.index t a * S128x1024.size a ≤ (i a).val
      ∧ (i a).val < win0_6.index t a * S128x1024.size a + S128x1024.size a := by
  show i ∈ ((View.whole main_v4_1).slice (win0_6.rect t)).set ↔ _
  rw [View.set_slice_whole, Rect.mem_set_unit]
  exact Iff.rfl

/-- Every entry of the second output is written by the point whose 128 rows hold its row: point `row / 128`. -/
theorem cover_k (i : S8192x1024.Idx) :
    ∃ t : Fin cfg0.N, (cfg0.win 6).flush t = true ∧ i ∈ ((cfg0.win 6).blk t).view.set := by
  have h0 : (i 0).val < 8192 := (i 0).isLt
  have h1 : (i 1).val < 1024 := (i 1).isLt
  have hN : (i 0).val / 128 < cfg0.N := Nat.lt_of_lt_of_eq (by omega : (i 0).val / 128 < 64) N_0.symm
  refine ⟨⟨(i 0).val / 128, hN⟩, flush0_6 _, ?_⟩
  rw [mem_blk_k]
  obtain ⟨-, -, -, -, -, -, -, -, -, -, -, e0, e1, -⟩ := idx_facts ⟨(i 0).val / 128, hN⟩
  have e0' : win0_6.index ⟨(i 0).val / 128, hN⟩ (0 : Fin 2) = (i 0).val / 128 := e0
  intro a
  match a with
  | ⟨0, _⟩ =>
    show win0_6.index ⟨(i 0).val / 128, hN⟩ (0 : Fin 2) * 128 ≤ (i 0).val
      ∧ (i 0).val < win0_6.index ⟨(i 0).val / 128, hN⟩ (0 : Fin 2) * 128 + 128
    rw [e0']; omega
  | ⟨1, _⟩ =>
    show win0_6.index ⟨(i 0).val / 128, hN⟩ (1 : Fin 2) * 1024 ≤ (i 1).val
      ∧ (i 1).val < win0_6.index ⟨(i 0).val / 128, hN⟩ (1 : Fin 2) * 1024 + 1024
    rw [e1]; omega

/-- An entry of the third output lies in point `t`'s block iff, on each axis, it lies in the block's range. -/
theorem mem_blk_v (t : Fin cfg0.N) (i : S8192x1024.Idx) :
    i ∈ ((cfg0.win 7).blk t).view.set ↔ ∀ a : Fin 2, win0_7.index t a * S128x1024.size a ≤ (i a).val
      ∧ (i a).val < win0_7.index t a * S128x1024.size a + S128x1024.size a := by
  show i ∈ ((View.whole main_v4_2).slice (win0_7.rect t)).set ↔ _
  rw [View.set_slice_whole, Rect.mem_set_unit]
  exact Iff.rfl

/-- Every entry of the third output is written by the point whose 128 rows hold its row: point `row / 128`. -/
theorem cover_v (i : S8192x1024.Idx) :
    ∃ t : Fin cfg0.N, (cfg0.win 7).flush t = true ∧ i ∈ ((cfg0.win 7).blk t).view.set := by
  have h0 : (i 0).val < 8192 := (i 0).isLt
  have h1 : (i 1).val < 1024 := (i 1).isLt
  have hN : (i 0).val / 128 < cfg0.N := Nat.lt_of_lt_of_eq (by omega : (i 0).val / 128 < 64) N_0.symm
  refine ⟨⟨(i 0).val / 128, hN⟩, flush0_7 _, ?_⟩
  rw [mem_blk_v]
  obtain ⟨-, -, -, -, -, -, -, -, -, -, -, -, -, e0, e1⟩ := idx_facts ⟨(i 0).val / 128, hN⟩
  have e0' : win0_7.index ⟨(i 0).val / 128, hN⟩ (0 : Fin 2) = (i 0).val / 128 := e0
  intro a
  match a with
  | ⟨0, _⟩ =>
    show win0_7.index ⟨(i 0).val / 128, hN⟩ (0 : Fin 2) * 128 ≤ (i 0).val
      ∧ (i 0).val < win0_7.index ⟨(i 0).val / 128, hN⟩ (0 : Fin 2) * 128 + 128
    rw [e0']; omega
  | ⟨1, _⟩ =>
    show win0_7.index ⟨(i 0).val / 128, hN⟩ (1 : Fin 2) * 1024 ≤ (i 1).val
      ∧ (i 1).val < win0_7.index ⟨(i 0).val / 128, hN⟩ (1 : Fin 2) * 1024 + 1024
    rw [e1]; omega

/-- The first output array after the run: the projection of the rows the region found onto the first weight matrix. -/
theorem final_q (c : Dev nD) : (dats m 0 c).arrAt 5 cfg0.N
    = proj2 (V m c main_v0 : S8192x4096.Idx → EReal) (V m c main_arg1 : S4096.Idx → EReal) (V m c main_v1 : S4096x4096.Idx → EReal) :=
  (dats m 0 c).arrAt_eq_of_cover 5 _ (fun t _ => flushed_q m c t) cover_q

/-- The second output array after the run: the projection of the rows the region found onto the second weight matrix. -/
theorem final_k (c : Dev nD) : (dats m 0 c).arrAt 6 cfg0.N
    = proj2 (V m c main_v0 : S8192x4096.Idx → EReal) (V m c main_arg1 : S4096.Idx → EReal) (V m c main_v2 : S4096x1024.Idx → EReal) :=
  (dats m 0 c).arrAt_eq_of_cover 6 _ (fun t _ => flushed_k m c t) cover_k

/-- The third output array after the run: the projection of the rows the region found onto the third weight matrix. -/
theorem final_v (c : Dev nD) : (dats m 0 c).arrAt 7 cfg0.N
    = proj2 (V m c main_v0 : S8192x4096.Idx → EReal) (V m c main_arg1 : S4096.Idx → EReal) (V m c main_v3 : S4096x1024.Idx → EReal) :=
  (dats m 0 c).arrAt_eq_of_cover 7 _ (fun t _ => flushed_v m c t) cover_v

end Cert.KernelIdeal.Hand

end
-- ==== Proof.KernelRun.lean ====
/-
  The kernel program's run with its three results named.

  Before the region the program merges the batch and position axes of the activations and rounds the three weight
  matrices to the matrix unit's input format; on the extended reals the rounding changes nothing, so the region finds
  the merged activations and the weights themselves. After the region it splits the 8192 rows of each output back into
  (batch, position). Merging, projecting the 8192 rows and splitting again is the projection of the rows `(b, s)`
  (`proj3_eq_cast`), so each result ends at `proj3` of the argument arrays.
-/
import proofs.«177403_j21139829030929_2_alg».proof.Proof.Blocks
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.RmsProj

variable (m : (ℓ : Loc nD τ sig) → Buf (Elt Ideal) ℓ) (ρ : Dev nD → PrngReg)

/-- The region finds the activations with their two leading axes merged. -/
theorem act_eq (c : Dev nD) : (V m c main_v0 : S8192x4096.Idx → EReal)
    = shapeCast S8192x4096 (m ((c : Thread nD τ).loc main_arg0) : S2x4096x4096.Idx → EReal) shapeCasts_S2x4096x4096_S8192x4096 := by
  show StableHlo.after hostOps0 (fun b => m (c, b)) (Proc.devRef .tc main_v0) = _
  after_results
  rfl

/-- The region finds each weight matrix as launched: rounding to the matrix unit's input format is the identity on the
    extended reals. -/
theorem wq_eq (c : Dev nD) : (V m c main_v1 : S4096x4096.Idx → EReal) = (m ((c : Thread nD τ).loc main_arg2) : S4096x4096.Idx → EReal) := by
  show StableHlo.after hostOps0 (fun b => m (c, b)) (Proc.devRef .tc main_v1) = _
  after_results
  rfl
theorem wk_eq (c : Dev nD) : (V m c main_v2 : S4096x1024.Idx → EReal) = (m ((c : Thread nD τ).loc main_arg3) : S4096x1024.Idx → EReal) := by
  show StableHlo.after hostOps0 (fun b => m (c, b)) (Proc.devRef .tc main_v2) = _
  after_results
  rfl
theorem wv_eq (c : Dev nD) : (V m c main_v3 : S4096x1024.Idx → EReal) = (m ((c : Thread nD τ).loc main_arg4) : S4096x1024.Idx → EReal) := by
  show StableHlo.after hostOps0 (fun b => m (c, b)) (Proc.devRef .tc main_v3) = _
  after_results
  rfl

/-- The first result: the rows `(b, s)` of the activations, normalized, against the first weight matrix. -/
theorem q_result (c : Dev nD) :
    (Pipeline.afterTail₀ cfgs (dats m) 0 (V0 m) [hostOps1] c main_v5 : S2x4096x4096.Idx → EReal)
      = proj3 (m ((c : Thread nD τ).loc main_arg0) : S2x4096x4096.Idx → EReal) (m ((c : Thread nD τ).loc main_arg1) : S4096.Idx → EReal)
          (m ((c : Thread nD τ).loc main_arg2) : S4096x4096.Idx → EReal) := by
  have hw : (Pipeline.withArrays spec0 c (V0 m c) (fun w => (dats m 0 c).arrAt w cfg0.N) (Proc.devRef .tc main_v4_0) : S8192x4096.Idx → EReal)
      = proj2 (V m c main_v0 : S8192x4096.Idx → EReal) (V m c main_arg1 : S4096.Idx → EReal) (V m c main_v1 : S4096x4096.Idx → EReal) :=
    (Pipeline.withArrays_arr spec0 launch0.win.arr_inj c _ _ 5).trans (final_q m c)
  unfold Pipeline.afterTail₀
  show StableHlo.after hostOps1 _ (Proc.devRef .tc main_v5) = _
  after_results
  refine (congrArg (fun A : S8192x4096.Idx → EReal => shapeCast S2x4096x4096 A shapeCasts_S8192x4096_S2x4096x4096) hw).trans ?_
  rw [act_eq, V_main_arg1, wq_eq]
  exact proj3_eq_cast _ _ _ _ _

/-- The second result: the rows `(b, s)` of the activations, normalized, against the second weight matrix. -/
theorem k_result (c : Dev nD) :
    (Pipeline.afterTail₀ cfgs (dats m) 0 (V0 m) [hostOps1] c main_v6 : S2x4096x1024.Idx → EReal)
      = proj3 (m ((c : Thread nD τ).loc main_arg0) : S2x4096x4096.Idx → EReal) (m ((c : Thread nD τ).loc main_arg1) : S4096.Idx → EReal)
          (m ((c : Thread nD τ).loc main_arg3) : S4096x1024.Idx → EReal) := by
  have hw : (Pipeline.withArrays spec0 c (V0 m c) (fun w => (dats m 0 c).arrAt w cfg0.N) (Proc.devRef .tc main_v4_1) : S8192x1024.Idx → EReal)
      = proj2 (V m c main_v0 : S8192x4096.Idx → EReal) (V m c main_arg1 : S4096.Idx → EReal) (V m c main_v2 : S4096x1024.Idx → EReal) :=
    (Pipeline.withArrays_arr spec0 launch0.win.arr_inj c _ _ 6).trans (final_k m c)
  unfold Pipeline.afterTail₀
  show StableHlo.after hostOps1 _ (Proc.devRef .tc main_v6) = _
  after_results
  refine (congrArg (fun A : S8192x1024.Idx → EReal => shapeCast S2x4096x1024 A shapeCasts_S8192x1024_S2x4096x1024) hw).trans ?_
  rw [act_eq, V_main_arg1, wk_eq]
  exact proj3_eq_cast _ _ _ _ _

/-- The third result: the rows `(b, s)` of the activations, normalized, against the third weight matrix. -/
theorem v_result (c : Dev nD) :
    (Pipeline.afterTail₀ cfgs (dats m) 0 (V0 m) [hostOps1] c main_v7 : S2x4096x1024.Idx → EReal)
      = proj3 (m ((c : Thread nD τ).loc main_arg0) : S2x4096x4096.Idx → EReal) (m ((c : Thread nD τ).loc main_arg1) : S4096.Idx → EReal)
          (m ((c : Thread nD τ).loc main_arg4) : S4096x1024.Idx → EReal) := by
  have hw : (Pipeline.withArrays spec0 c (V0 m c) (fun w => (dats m 0 c).arrAt w cfg0.N) (Proc.devRef .tc main_v4_2) : S8192x1024.Idx → EReal)
      = proj2 (V m c main_v0 : S8192x4096.Idx → EReal) (V m c main_arg1 : S4096.Idx → EReal) (V m c main_v3 : S4096x1024.Idx → EReal) :=
    (Pipeline.withArrays_arr spec0 launch0.win.arr_inj c _ _ 7).trans (final_v m c)
  unfold Pipeline.afterTail₀
  show StableHlo.after hostOps1 _ (Proc.devRef .tc main_v7) = _
  after_results
  refine (congrArg (fun A : S8192x1024.Idx → EReal => shapeCast S2x4096x1024 A shapeCasts_S8192x1024_S2x4096x1024) hw).trans ?_
  rw [act_eq, V_main_arg1, wv_eq]
  exact proj3_eq_cast _ _ _ _ _

/-- Every weakly fair execution of the kernel program ends with the three results at the projections of the normalized rows
    of the launch arrays, and the arguments unchanged. -/
theorem run : θ_run defs (onTc (τ := τ) (main (F := Ideal))) ⟨m, fun _ => 0, ρ⟩ fun r => ∀ c : Dev nD,
      r.2.mem ((c.tc : Thread nD τ).loc main_v5) = (proj3 (m ((c : Thread nD τ).loc main_arg0) : S2x4096x4096.Idx → EReal)
          (m ((c : Thread nD τ).loc main_arg1) : S4096.Idx → EReal) (m ((c : Thread nD τ).loc main_arg2) : S4096x4096.Idx → EReal) : S2x4096x4096.Idx → EReal)
      ∧ r.2.mem ((c.tc : Thread nD τ).loc main_v6) = (proj3 (m ((c : Thread nD τ).loc main_arg0) : S2x4096x4096.Idx → EReal)
          (m ((c : Thread nD τ).loc main_arg1) : S4096.Idx → EReal) (m ((c : Thread nD τ).loc main_arg3) : S4096x1024.Idx → EReal) : S2x4096x1024.Idx → EReal)
      ∧ r.2.mem ((c.tc : Thread nD τ).loc main_v7) = (proj3 (m ((c : Thread nD τ).loc main_arg0) : S2x4096x4096.Idx → EReal)
          (m ((c : Thread nD τ).loc main_arg1) : S4096.Idx → EReal) (m ((c : Thread nD τ).loc main_arg4) : S4096x1024.Idx → EReal) : S2x4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (q_result m c),
      ((h c).2 main_v6 (Pipeline.mem_restRefs_of main_v6 (by decide) (by decide))).trans (k_result m c),
      ((h c).2 main_v7 (Pipeline.mem_restRefs_of main_v7 (by decide) (by decide))).trans (v_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.lean ====
/-
  A fused root-mean-square normalization and three projections, against the same computation written with whole-array
  operations.

  Both programs take activations `x` of shape [2, 4096, 4096], a gain vector `g` of 4096 entries and three weight
  matrices with 4096 rows. For each row `(b, s)` of `x` both compute the scale `(Σ_k x² / 4096 + ε)^(-1/2)`, the normalized
  entries `x · scale · g`, and for each weight matrix the sums `Σ_k normalized(b, s, k) · w(k, d)`. The kernel works on the
  rows merged into 8192, 128 rows per grid point, rounds the normalized block and the weights to a narrower float
  format before the products, and splits the rows again afterwards; the reference works on the three-axis arrays
  directly. On the extended reals a change of float format is the identity and a product into a zero accumulator is
  the plain sum, so the two programs compute one function, entry by entry, with the same constants: no law of
  arithmetic beyond `0 + a = a` joins them, and the finiteness of the inputs is never used.

  The modules: `RowSpec` states that function (`proj3`, and `proj2` on merged rows); `RefSide` reads the reference's
  operations at an entry and finds `proj3`; `KernelRow` reads the kernel body at an entry of a block; `Blocks` goes from
  the 64 blocks written back to each whole output array; `KernelRun` carries the host lines around the region and states
  the kernel program's run. Here the five claims are put together.
-/
import proofs.«177403_j21139829030929_2_alg».proof.Defs
import proofs.«177403_j21139829030929_2_alg».proof.Proof.Gen.Kernel
import proofs.«177403_j21139829030929_2_alg».proof.Proof.Gen.Kernel.Skeleton
import proofs.«177403_j21139829030929_2_alg».proof.Proof.Gen.Kernel.Launch
import proofs.«177403_j21139829030929_2_alg».proof.Proof.Gen.Kernel.Points
import proofs.«177403_j21139829030929_2_alg».proof.Proof.Gen.Kernel.Frame
import proofs.«177403_j21139829030929_2_alg».proof.Proof.Gen.KernelIdeal
import proofs.«177403_j21139829030929_2_alg».proof.Proof.Gen.KernelIdeal.Skeleton
import proofs.«177403_j21139829030929_2_alg».proof.Proof.Gen.KernelIdeal.Launch
import proofs.«177403_j21139829030929_2_alg».proof.Proof.Gen.KernelIdeal.Points
import proofs.«177403_j21139829030929_2_alg».proof.Proof.Gen.KernelIdeal.Frame
import proofs.«177403_j21139829030929_2_alg».proof.Proof.Gen.ReferenceIdeal
import proofs.«177403_j21139829030929_2_alg».proof.Proof.Gen.ReferenceIdeal.Run
import proofs.«177403_j21139829030929_2_alg».proof.Proof.Gen.ReferenceIdeal.Read
import proofs.«177403_j21139829030929_2_alg».proof.Proof.Gen.Pre_finite_inputs
import proofs.«177403_j21139829030929_2_alg».proof.Proof.RefSide
import proofs.«177403_j21139829030929_2_alg».proof.Proof.KernelRun
import Idealize.ShloMosaic.Adequacy
import Idealize.ShloMosaic.Init

noncomputable section

namespace Cert.Proof

open Idealize.ShloMosaic Idealize.SL.Sem Cert.RmsProj

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- On the extended reals, from memories that agree on the five arguments, both programs end with the three results at the
    projections of the normalized rows: the kernel's by its run, the reference's by its operations read at an entry. -/
theorem algebraic : Cert.algebraic_KernelIdeal_ReferenceIdeal := by
  intro m ρ m' ρ' _ hagree
  refine ⟨_, _, _, Cert.KernelIdeal.Hand.run m ρ, ?_⟩
  refine (θ_run Cert.ReferenceIdeal.defs _ _).mono (fun _ h c => ?_) (Cert.ReferenceIdeal.Value.run (F := Ideal) m' ρ')
  obtain ⟨a0, a1, a2, a3, a4⟩ := hagree c
  refine ⟨(h c).1.trans ?_, (h c).2.1.trans ?_, (h c).2.2.1.trans ?_, (h c).2.2.2⟩
  · rw [Cert.ReferenceIdeal.Read.val_main_v13_eq, a0, a1, a2]
    exact Cert.ReferenceIdeal.RefValue.q_eq _ _ _
  · rw [Cert.ReferenceIdeal.Read.val_main_v14_eq, a0, a1, a3]
    exact Cert.ReferenceIdeal.RefValue.k_eq _ _ _
  · rw [Cert.ReferenceIdeal.Read.val_main_v15_eq, a0, a1, a4]
    exact Cert.ReferenceIdeal.RefValue.v_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
